-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S1x2048 : Shape := ⟨2, ![1, 2048]⟩
abbrev S512x2048 : Shape := ⟨2, ![512, 2048]⟩
abbrev S4096x512 : Shape := ⟨2, ![4096, 512]⟩
abbrev S1x512 : Shape := ⟨2, ![1, 512]⟩
abbrev S512x512 : Shape := ⟨2, ![512, 512]⟩
abbrev S512x4096 : Shape := ⟨2, ![512, 4096]⟩

abbrev nBuf : Space → Nat
  | .hbm => 25
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x2048, .f32⟩
  | .hbm, ⟨12, _⟩ => ⟨S4096x2048, .bf16⟩
  | .hbm, ⟨13, _⟩ => ⟨S4096x2048, .f32⟩
  | .hbm, ⟨14, _⟩ => ⟨S4096x2048, .bf16⟩
  | .hbm, ⟨15, _⟩ => ⟨S4096x2048, .f32⟩
  | .hbm, ⟨16, _⟩ => ⟨S4096x2048, .bf16⟩
  | .hbm, ⟨17, _⟩ => ⟨S4096x2048, .f32⟩
  | .hbm, ⟨18, _⟩ => ⟨S4096x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S4096x512, .bf16⟩
  | .local _ .vmem, ⟨9, _⟩ => ⟨S4096x512, .bf16⟩
  | .local _ .vmem, ⟨10, _⟩ => ⟨S1x512, .f32⟩
  | .local _ .vmem, ⟨11, _⟩ => ⟨S1x512, .f32⟩
  | .local _ .vmem, ⟨12, _⟩ => ⟨S4096x512, .bf16⟩
  | .local _ .vmem, ⟨13, _⟩ => ⟨S4096x512, .bf16⟩
  | .local _ .vmem, ⟨14, _⟩ => ⟨S1x512, .f32⟩
  | .local _ .vmem, ⟨15, _⟩ => ⟨S1x512, .f32⟩
  | .local _ .vmem, ⟨16, _⟩ => ⟨S4096x512, .bf16⟩
  | .local _ .vmem, ⟨17, _⟩ => ⟨S4096x512, .bf16⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S2048x4096_S4096x2048_1_0 : S2048x4096.Transposes [1, 0] S4096x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S512x4096_S512x2048_0_0 : ∀ a, (![0, 0] : Fin 2 → Nat) a + S512x2048.size a ≤ S512x4096.size a
  shapeCasts_S512x2048_S512x2048 : S512x2048.ShapeCasts S512x2048
  packedbf16_S512x4096_S512x2048_0_0 : (Rect.unit (s := S512x4096) ![0, 0] S512x2048.size inb_S512x4096_S512x2048_0_0).PackedRows (EltTy.packing .bf16)
  inb_S512x4096_S512x2048_0_2048 : ∀ a, (![0, 2048] : Fin 2 → Nat) a + S512x2048.size a ≤ S512x4096.size a
  packedbf16_S512x4096_S512x2048_0_2048 : (Rect.unit (s := S512x4096) ![0, 2048] S512x2048.size inb_S512x4096_S512x2048_0_2048).PackedRows (EltTy.packing .bf16)
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x2048.size a
  hwx0_2 : ∀ i : grid0.Coords, EltTy.bits .bf16 = 32 ∨ (Rect.block (s := S4096x2048) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x2048.size a
  hwx0_4 : ∀ i : grid0.Coords, EltTy.bits .bf16 = 32 ∨ (Rect.block (s := S4096x2048) S4096x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x512.size a ≤ S4096x2048.size a
  hwx0_6 : ∀ i : grid0.Coords, EltTy.bits .bf16 = 32 ∨ (Rect.block (s := S4096x2048) S4096x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x512.size a ≤ S4096x2048.size a
  hwx0_8 : ∀ i : grid0.Coords, EltTy.bits .bf16 = 32 ∨ (Rect.block (s := S4096x2048) S4096x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x2048.size a
  hwx0_10 : ∀ i : grid0.Coords, EltTy.bits .f32 = 32 ∨ (Rect.block (s := S4096x2048) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x2048.size a
  hwx0_11 : ∀ i : grid0.Coords, EltTy.bits .f32 = 32 ∨ (Rect.block (s := S4096x2048) S512x512.size (cc0_transform_11 i) (hinb0_11 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S4096x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KernelBlock.lean ====
/-
  What one grid point of the kernel leaves in its two output blocks, as terms over the blocks it was given.

  The body first writes the bf16 casts of its `x` block and its `h` block into the left and right halves of a
  [512, 4096] scratch buffer and then loads the whole buffer: what it loads is the two halves side by side,
  whatever the buffer held before, because the two stores cover it. Every later value is arithmetic on that
  joined block, the four weight blocks and the four bias rows, and the two stores to the output blocks cover
  them; so each output block ends as one closed term.
-/
import proofs.«102140_j22119081574758_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Cert.KernelIdeal Cert.KernelIdeal.Gen

namespace Cert.KernelIdeal.Block

variable {F : FTy → Type} [FloatOps F]

theorem hz : (![0, 0] : Fin 2 → Nat) = fun _ => 0 := funext fun a => by fin_cases a <;> rfl

/-- Two [512, 2048] blocks side by side: column `k` of the result is column `k` of the first below 2048 and
    column `k - 2048` of the second from there on. -/
def sideBySide {α : Type} (w0 w1 : S512x2048.Idx → α) : S512x4096.Idx → α := fun y =>
  if h : (y 1).val < 2048 then w0 (ix2 (y 0) ⟨(y 1).val, h⟩)
  else w1 (ix2 (y 0) ⟨(y 1).val - 2048, by have : (y 1).val < 4096 := (y 1).isLt; omega⟩)

/-- A load of the whole scratch buffer after a store of `w0` to its left half and then of `w1` to its right half
    reads the two side by side. -/
theorem scratch_read (v : View sig .tc .vmem S512x4096 .bf16) (w0 w1 : S512x2048.Idx → Elt F .bf16) :
    v.readCov [⟨Rect.unit ![0, 2048] S512x2048.size inb_S512x4096_S512x2048_0_2048, w1⟩,
        ⟨Rect.unit ![0, 0] S512x2048.size inb_S512x4096_S512x2048_0_0, w0⟩]
      (Rect.unit ![0, 0] S512x4096.size inb_S512x4096_S512x4096_0_0).toLoadRect = sideBySide w0 w1 := by
  rw [View.readCov_eq_canon']
  refine funext fun (j : S512x4096.Idx) => ?_
  have hj : (Rect.unit (s := S512x4096) ![0, 0] S512x4096.size inb_S512x4096_S512x4096_0_0).idx j = j :=
    funext fun a => Fin.ext (by
      show (![0, 0] : Fin 2 → Nat) a + 1 * (j a).val = (j a).val
      rw [congrFun hz a]; omega)
  show View.canon _ ((Rect.unit (s := S512x4096) ![0, 0] S512x4096.size inb_S512x4096_S512x4096_0_0).idx j) = _
  rw [hj]
  have hj0 : (j 0).val < 512 := (j 0).isLt
  have hj1 : (j 1).val < 4096 := (j 1).isLt
  by_cases h : (j 1).val < 2048
  · -- a column of the left half: the later store (to the right half) misses it, the earlier one holds it
    have hnm : j ∉ (Rect.unit (s := S512x4096) ![0, 2048] S512x2048.size inb_S512x4096_S512x2048_0_2048).set := by
      rw [Rect.mem_set_unit]
      intro hm
      have h2 : 2048 ≤ (j 1).val := (hm 1).1
      omega
    have e : (Rect.unit (s := S512x4096) ![0, 0] S512x2048.size inb_S512x4096_S512x2048_0_0).emb (ix2 (j 0) ⟨(j 1).val, h⟩) = j :=
      funext fun a => Fin.ext (by
        match a with
        | ⟨0, _⟩ => show 0 + 1 * (j 0).val = (j 0).val; omega
        | ⟨1, _⟩ => show 0 + 1 * (j 1).val = (j 1).val; omega)
    have c1 := View.canon_cons_emb (Val := Elt F) (Rect.unit (s := S512x4096) ![0, 0] S512x2048.size inb_S512x4096_S512x2048_0_0) w0 [] (ix2 (j 0) ⟨(j 1).val, h⟩)
    rw [e] at c1
    have c0 := View.canon_cons_of_not_mem (Val := Elt F) (⟨(Rect.unit (s := S512x4096) ![0, 2048] S512x2048.size inb_S512x4096_S512x2048_0_2048), w1⟩ : View.Piece (Elt F) S512x4096 .bf16)
      [(⟨(Rect.unit (s := S512x4096) ![0, 0] S512x2048.size inb_S512x4096_S512x2048_0_0), w0⟩ : View.Piece (Elt F) S512x4096 .bf16)] hnm
    refine c0.trans (c1.trans ?_)
    unfold sideBySide
    rw [dif_pos h]
  · -- a column of the right half: the later store holds it
    have h' : 2048 ≤ (j 1).val := Nat.le_of_not_lt h
    have e : (Rect.unit (s := S512x4096) ![0, 2048] S512x2048.size inb_S512x4096_S512x2048_0_2048).emb (ix2 (j 0) ⟨(j 1).val - 2048, by omega⟩) = j :=
      funext fun a => Fin.ext (by
        match a with
        | ⟨0, _⟩ => show 0 + 1 * (j 0).val = (j 0).val; omega
        | ⟨1, _⟩ => show 2048 + 1 * ((j 1).val - 2048) = (j 1).val; omega)
    have c1 := View.canon_cons_emb (Val := Elt F) (Rect.unit (s := S512x4096) ![0, 2048] S512x2048.size inb_S512x4096_S512x2048_0_2048) w1
      [⟨(Rect.unit (s := S512x4096) ![0, 0] S512x2048.size inb_S512x4096_S512x2048_0_0), w0⟩] (ix2 (j 0) ⟨(j 1).val - 2048, by omega⟩)
    rw [e] at c1
    refine c1.trans ?_
    unfold sideBySide
    rw [dif_neg h]

/-- The joined block at a column of the left half. -/
theorem sideBySide_left {α : Type} (w0 w1 : S512x2048.Idx → α) (r : Fin 512) (k : Fin 4096) (h : k.val < 2048) :
    sideBySide w0 w1 (ix2 r k) = w0 (ix2 r ⟨k.val, h⟩) := by
  unfold sideBySide
  exact dif_pos h

/-- The joined block at a column of the right half. -/
theorem sideBySide_right {α : Type} (w0 w1 : S512x2048.Idx → α) (r : Fin 512) (k : Fin 4096) (h : ¬ k.val < 2048) :
    sideBySide w0 w1 (ix2 r k) = w1 (ix2 r ⟨k.val - 2048, by have := k.isLt; omega⟩) := by
  unfold sideBySide
  exact dif_neg h

/-- The cell-state block a grid point leaves: the last payload over the joined block, the forget, input and
    candidate weight blocks and their bias rows. -/
theorem out11_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S1x512 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S4096x512 .bf16) (harg8 : arg8.IsWhole) (arg9 : Memref sig .tc .vmem S1x512 .f32) (harg9 : arg9.IsWhole) (arg10 : Memref sig .tc .vmem S4096x512 .bf16) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x4096 .bf16) (harg14 : arg14.IsWhole) (x0 : Vec F S512x2048 .f32) (x1 : Vec F S512x2048 .f32) (x2 : Vec F S4096x512 .bf16) (x3 : Vec F S1x512 .f32) (x4 : Vec F S4096x512 .bf16) (x5 : Vec F S1x512 .f32) (x6 : Vec F S4096x512 .bf16) (x7 : Vec F S1x512 .f32) (x8 : Vec F S4096x512 .bf16) (x9 : Vec F S1x512 .f32) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
      = k0_pay1 (k0_pay5 (sideBySide (α := Elt F .bf16) (k0_pay3 x0) (k0_pay4 x1)) x2 x3) (k0_pay6 (sideBySide (α := Elt F .bf16) (k0_pay3 x0) (k0_pay4 x1)) x4 x5) (k0_pay7 (sideBySide (α := Elt F .bf16) (k0_pay3 x0) (k0_pay4 x1)) x6) x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz, scratch_read]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S512x2048) hz, View.ld_unit_zero (S := S4096x512) hz, View.ld_unit_zero (S := S1x512) hz]

/-- The hidden-state block a grid point leaves: the output gate's payload over the same values and the output
    weight block and bias row. -/
theorem out10_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S1x512 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S4096x512 .bf16) (harg8 : arg8.IsWhole) (arg9 : Memref sig .tc .vmem S1x512 .f32) (harg9 : arg9.IsWhole) (arg10 : Memref sig .tc .vmem S4096x512 .bf16) (harg10 : arg10.IsWhole) (arg11 : Memref sig .tc .vmem S1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x4096 .bf16) (harg14 : arg14.IsWhole) (x0 : Vec F S512x2048 .f32) (x1 : Vec F S512x2048 .f32) (x2 : Vec F S4096x512 .bf16) (x3 : Vec F S1x512 .f32) (x4 : Vec F S4096x512 .bf16) (x5 : Vec F S1x512 .f32) (x6 : Vec F S4096x512 .bf16) (x7 : Vec F S1x512 .f32) (x8 : Vec F S4096x512 .bf16) (x9 : Vec F S1x512 .f32) :
    out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
      = k0_pay2 (sideBySide (α := Elt F .bf16) (k0_pay3 x0) (k0_pay4 x1)) (k0_pay5 (sideBySide (α := Elt F .bf16) (k0_pay3 x0) (k0_pay4 x1)) x2 x3) (k0_pay6 (sideBySide (α := Elt F .bf16) (k0_pay3 x0) (k0_pay4 x1)) x4 x5) (k0_pay7 (sideBySide (α := Elt F .bf16) (k0_pay3 x0) (k0_pay4 x1)) x6) x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz, scratch_read]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S512x2048) hz, View.ld_unit_zero (S := S4096x512) hz, View.ld_unit_zero (S := S1x512) hz]

end Cert.KernelIdeal.Block

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.BlockValue.lean ====
/-
  The kernel body's arithmetic read at one entry (r, q) of a [512, 512] output block, on the extended reals.

  With `a` the joined [512, 4096] block, `w` a [4096, 512] weight block and `β` a [1, 512] bias row, a gate's
  pre-activation at (r, q) is `(∑ₖ a r k · w k q) + β 0 q`: the matrix product into a zero accumulator is that
  sum, and the bias row is repeated down the rows. The forget and input gates apply the logistic function to
  it, the candidate the hyperbolic tangent; the cell entry is `(f + i) · tanh(candidate)` and the hidden entry
  the output gate's sigmoid times the tanh of the cell entry. Changing the float format (the casts to bf16) is
  the identity here.
-/
import proofs.«102140_j22119081574758_2_alg».proof.Proof.Gen.KernelIdeal.Skeleton
import proofs.«102140_j22119081574758_2_alg».proof.Proof.LibRowOps
import proofs.«102140_j22119081574758_2_alg».proof.Proof.LibRowColOps
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.KernelIdeal Cert.KernelIdeal.Gen

namespace Cert.KernelIdeal.BlockValue

/-- The kernel's matrix product contracts the left operand's columns with the right operand's rows, no batch axis. -/
theorem dot_plain : Cert.RowOps.IsPlain (M := 512) (K := 4096) (N := 512) dot_S512x4096_S4096x512_S512x512_1_0_0_1_n_n :=
  ⟨rfl, rfl, rfl, rfl, rfl, rfl⟩

/-- A gate's pre-activation at entry (r, q) of a block. -/
def blockPre (a : FVec Ideal S512x4096 .bf16) (w : FVec Ideal S4096x512 .bf16) (β : FVec Ideal S1x512 .f32) (r q : Fin 512) : EReal :=
  (∑ k : Fin 4096, a (ix2 r k) * w (ix2 k q)) + β (ix2 (0 : Fin 1) q)

/-- The product into zero plus the repeated bias row, at (r, q), is the pre-activation. -/
theorem pre_apply (a : FVec Ideal S512x4096 .bf16) (w : FVec Ideal S4096x512 .bf16) (β : FVec Ideal S1x512 .f32) (r q : Fin 512) :
    (addf (matmul (F := Ideal) (φ₁ := .bf16) (φ₂ := .bf16) dot_S512x4096_S4096x512_S512x512_1_0_0_1_n_n none a (shapeCast S4096x512 w shapeCasts_S4096x512_S4096x512) (constant (F := Ideal) S512x512 .f32 0x00000000#32))
        (broadcastTo S512x512 (shapeCast S1x512 β shapeCasts_S1x512_S1x512) broadcasts_S1x512_S512x512)) (ix2 r q) = blockPre a w β r q := by
  rw [shapeCast_self, shapeCast_self]
  exact congrArg₂ (· + ·) (Cert.RowOps.matmul_zero_apply dot_plain none a w r q)
    (Cert.RowColOps.rowSpread_apply β broadcasts_S1x512_S512x512 r q)

/-- The forget gate's payload at (r, q). -/
theorem pay5_apply (a : FVec Ideal S512x4096 .bf16) (w : FVec Ideal S4096x512 .bf16) (β : FVec Ideal S1x512 .f32) (r q : Fin 512) :
    k0_pay5 (F := Ideal) a w β (ix2 r q) = Ideal.logistic (blockPre a w β r q) :=
  congrArg Ideal.logistic (pre_apply a w β r q)

/-- The input gate's payload at (r, q). -/
theorem pay6_apply (a : FVec Ideal S512x4096 .bf16) (w : FVec Ideal S4096x512 .bf16) (β : FVec Ideal S1x512 .f32) (r q : Fin 512) :
    k0_pay6 (F := Ideal) a w β (ix2 r q) = Ideal.logistic (blockPre a w β r q) :=
  congrArg Ideal.logistic (pre_apply a w β r q)

/-- The candidate's product at (r, q): the sum alone (its bias is added where the cell is formed). -/
theorem pay7_apply (a : FVec Ideal S512x4096 .bf16) (w : FVec Ideal S4096x512 .bf16) (r q : Fin 512) :
    k0_pay7 (F := Ideal) a w (ix2 r q) = ∑ k : Fin 4096, a (ix2 r k) * w (ix2 k q) := by
  show FloatOps.matmul (F := Ideal) (φ₁ := .bf16) (φ₂ := .bf16) dot_S512x4096_S4096x512_S512x512_1_0_0_1_n_n none a (shapeCast S4096x512 w shapeCasts_S4096x512_S4096x512) (constant (F := Ideal) S512x512 .f32 0x00000000#32) (ix2 r q) = _
  rw [shapeCast_self]
  exact Cert.RowOps.matmul_zero_apply dot_plain none a w r q

/-- The cell payload at (r, q) over any forget, input and candidate-product blocks and the candidate's bias row. -/
theorem pay1_apply (f g p : FVec Ideal S512x512 .f32) (β : FVec Ideal S1x512 .f32) (r q : Fin 512) :
    k0_pay1 (F := Ideal) f g p β (ix2 r q)
      = (f (ix2 r q) + g (ix2 r q)) * Ideal.tanh (p (ix2 r q) + β (ix2 (0 : Fin 1) q)) := by
  show (f (ix2 r q) + g (ix2 r q)) * Ideal.tanh (p (ix2 r q)
    + broadcastTo S512x512 (shapeCast S1x512 β shapeCasts_S1x512_S1x512) broadcasts_S1x512_S512x512 (ix2 r q)) = _
  rw [shapeCast_self, Cert.RowColOps.rowSpread_apply]

/-- The hidden payload at (r, q): the output gate's sigmoid times the tanh of the cell payload there. -/
theorem pay2_apply (a : FVec Ideal S512x4096 .bf16) (f g p : FVec Ideal S512x512 .f32) (βc : FVec Ideal S1x512 .f32)
    (wo : FVec Ideal S4096x512 .bf16) (βo : FVec Ideal S1x512 .f32) (r q : Fin 512) :
    k0_pay2 (F := Ideal) a f g p βc wo βo (ix2 r q)
      = Ideal.logistic (blockPre a wo βo r q) * Ideal.tanh (k0_pay1 (F := Ideal) f g p βc (ix2 r q)) :=
  congrArg (fun z => Ideal.logistic z * Ideal.tanh (k0_pay1 (F := Ideal) f g p βc (ix2 r q))) (pre_apply a wo βo r q)

/-- The cell entry of a block at (r, q). -/
def blockCell (a : FVec Ideal S512x4096 .bf16) (wf : FVec Ideal S4096x512 .bf16) (βf : FVec Ideal S1x512 .f32)
    (wi : FVec Ideal S4096x512 .bf16) (βi : FVec Ideal S1x512 .f32) (wc : FVec Ideal S4096x512 .bf16) (βc : FVec Ideal S1x512 .f32)
    (r q : Fin 512) : EReal :=
  (Ideal.logistic (blockPre a wf βf r q) + Ideal.logistic (blockPre a wi βi r q)) * Ideal.tanh (blockPre a wc βc r q)

/-- The hidden entry of a block at (r, q). -/
def blockHidden (a : FVec Ideal S512x4096 .bf16) (wf : FVec Ideal S4096x512 .bf16) (βf : FVec Ideal S1x512 .f32)
    (wi : FVec Ideal S4096x512 .bf16) (βi : FVec Ideal S1x512 .f32) (wc : FVec Ideal S4096x512 .bf16) (βc : FVec Ideal S1x512 .f32)
    (wo : FVec Ideal S4096x512 .bf16) (βo : FVec Ideal S1x512 .f32) (r q : Fin 512) : EReal :=
  Ideal.logistic (blockPre a wo βo r q) * Ideal.tanh (blockCell a wf βf wi βi wc βc r q)

/-- The cell-state block's term, entry by entry. -/
theorem cell_apply (a : FVec Ideal S512x4096 .bf16) (wf : FVec Ideal S4096x512 .bf16) (βf : FVec Ideal S1x512 .f32)
    (wi : FVec Ideal S4096x512 .bf16) (βi : FVec Ideal S1x512 .f32) (wc : FVec Ideal S4096x512 .bf16) (βc : FVec Ideal S1x512 .f32)
    (r q : Fin 512) :
    k0_pay1 (F := Ideal) (k0_pay5 a wf βf) (k0_pay6 a wi βi) (k0_pay7 a wc) βc (ix2 r q) = blockCell a wf βf wi βi wc βc r q := by
  rw [pay1_apply, pay5_apply, pay6_apply, pay7_apply]
  rfl

/-- The hidden-state block's term, entry by entry. -/
theorem hidden_apply (a : FVec Ideal S512x4096 .bf16) (wf : FVec Ideal S4096x512 .bf16) (βf : FVec Ideal S1x512 .f32)
    (wi : FVec Ideal S4096x512 .bf16) (βi : FVec Ideal S1x512 .f32) (wc : FVec Ideal S4096x512 .bf16) (βc : FVec Ideal S1x512 .f32)
    (wo : FVec Ideal S4096x512 .bf16) (βo : FVec Ideal S1x512 .f32) (r q : Fin 512) :
    k0_pay2 (F := Ideal) a (k0_pay5 a wf βf) (k0_pay6 a wi βi) (k0_pay7 a wc) βc wo βo (ix2 r q)
      = blockHidden a wf βf wi βi wc βc wo βo r q := by
  rw [pay2_apply, cell_apply]
  rfl

/-- The bf16 cast of a block is the block. -/
theorem pay3_eq (x : FVec Ideal S512x2048 .f32) : k0_pay3 (F := Ideal) x = x := by
  show shapeCast S512x2048 (truncf (F := Ideal) (φ := .f32) .bf16 x bitsLt_bf16_f32) shapeCasts_S512x2048_S512x2048 = x
  rw [shapeCast_self]
  rfl

theorem pay4_eq (x : FVec Ideal S512x2048 .f32) : k0_pay4 (F := Ideal) x = x := by
  show shapeCast S512x2048 (truncf (F := Ideal) (φ := .f32) .bf16 x bitsLt_bf16_f32) shapeCasts_S512x2048_S512x2048 = x
  rw [shapeCast_self]
  rfl

end Cert.KernelIdeal.BlockValue

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.HostPrefix.lean ====
/-
  What the kernel's region finds in the arrays its weight and bias windows read.

  Before the region the program transposes each [2048, 4096] weight array to [4096, 2048] and casts it to bf16,
  and views each length-2048 bias as a [1, 2048] row. On the extended reals the cast is the identity, so entry
  (k, n) of a weight window's array is entry (n, k) of the weight argument, and entry (0, n) of a bias window's
  array is entry n of the bias argument.
-/
import proofs.«102140_j22119081574758_2_alg».proof.Proof.Gen.KernelIdeal.Frame
import proofs.«102140_j22119081574758_2_alg».proof.Proof.LibRowOps
import proofs.«102140_j22119081574758_2_alg».proof.Proof.LibRowView
import Idealize.ShloMosaic.Lib.StableHlo.Run
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Cert.KernelIdeal Cert.KernelIdeal.Gen

namespace Cert.KernelIdeal.HostPrefix

variable (m : (ℓ : Loc nD τ sig) → Buf (Elt Ideal) ℓ)

/-- The forget gate's weight window reads the transposed weights. -/
theorem V_main_v1_apply (c : Dev nD) (k : Fin 4096) (n : Fin 2048) :
    (V m c main_v1 : S4096x2048.Idx → EReal) (ix2 k n) = (m ((c : Thread nD τ).loc main_arg3)) (ix2 n k) := by
  have e : (V m c main_v1 : S4096x2048.Idx → EReal)
      = truncf (F := Ideal) (φ := .f32) .bf16 (transpose S4096x2048 [1, 0] (m ((c : Thread nD τ).loc main_arg3)) transposes_S2048x4096_S4096x2048_1_0) bitsLt_bf16_f32 := by
    dsimp only [Gen.V, Gen.hostOps0]; after_results
  rw [e]
  exact Cert.RowOps.swap_apply (m ((c : Thread nD τ).loc main_arg3)) transposes_S2048x4096_S4096x2048_1_0 k n

/-- The input gate's weight window reads the transposed weights. -/
theorem V_main_v3_apply (c : Dev nD) (k : Fin 4096) (n : Fin 2048) :
    (V m c main_v3 : S4096x2048.Idx → EReal) (ix2 k n) = (m ((c : Thread nD τ).loc main_arg5)) (ix2 n k) := by
  have e : (V m c main_v3 : S4096x2048.Idx → EReal)
      = truncf (F := Ideal) (φ := .f32) .bf16 (transpose S4096x2048 [1, 0] (m ((c : Thread nD τ).loc main_arg5)) transposes_S2048x4096_S4096x2048_1_0) bitsLt_bf16_f32 := by
    dsimp only [Gen.V, Gen.hostOps0]; after_results
  rw [e]
  exact Cert.RowOps.swap_apply (m ((c : Thread nD τ).loc main_arg5)) transposes_S2048x4096_S4096x2048_1_0 k n

/-- The candidate gate's weight window reads the transposed weights. -/
theorem V_main_v5_apply (c : Dev nD) (k : Fin 4096) (n : Fin 2048) :
    (V m c main_v5 : S4096x2048.Idx → EReal) (ix2 k n) = (m ((c : Thread nD τ).loc main_arg7)) (ix2 n k) := by
  have e : (V m c main_v5 : S4096x2048.Idx → EReal)
      = truncf (F := Ideal) (φ := .f32) .bf16 (transpose S4096x2048 [1, 0] (m ((c : Thread nD τ).loc main_arg7)) transposes_S2048x4096_S4096x2048_1_0) bitsLt_bf16_f32 := by
    dsimp only [Gen.V, Gen.hostOps0]; after_results
  rw [e]
  exact Cert.RowOps.swap_apply (m ((c : Thread nD τ).loc main_arg7)) transposes_S2048x4096_S4096x2048_1_0 k n

/-- The output gate's weight window reads the transposed weights. -/
theorem V_main_v7_apply (c : Dev nD) (k : Fin 4096) (n : Fin 2048) :
    (V m c main_v7 : S4096x2048.Idx → EReal) (ix2 k n) = (m ((c : Thread nD τ).loc main_arg9)) (ix2 n k) := by
  have e : (V m c main_v7 : S4096x2048.Idx → EReal)
      = truncf (F := Ideal) (φ := .f32) .bf16 (transpose S4096x2048 [1, 0] (m ((c : Thread nD τ).loc main_arg9)) transposes_S2048x4096_S4096x2048_1_0) bitsLt_bf16_f32 := by
    dsimp only [Gen.V, Gen.hostOps0]; after_results
  rw [e]
  exact Cert.RowOps.swap_apply (m ((c : Thread nD τ).loc main_arg9)) transposes_S2048x4096_S4096x2048_1_0 k n

/-- The forget gate's bias window reads the bias as one row. -/
theorem V_main_v8_apply (c : Dev nD) (u : Fin 1) (n : Fin 2048) :
    (V m c main_v8 : S1x2048.Idx → EReal) (ix2 u n) = (m ((c : Thread nD τ).loc main_arg4)) (ix1 n) := by
  have e : (V m c main_v8 : S1x2048.Idx → EReal) = shapeCast S1x2048 (m ((c : Thread nD τ).loc main_arg4)) shapeCasts_S2048_S1x2048 := by
    dsimp only [Gen.V, Gen.hostOps0]; after_results; rfl
  rw [e]
  exact Cert.RowView.row_apply (m ((c : Thread nD τ).loc main_arg4)) shapeCasts_S2048_S1x2048 u n

/-- The input gate's bias window reads the bias as one row. -/
theorem V_main_v9_apply (c : Dev nD) (u : Fin 1) (n : Fin 2048) :
    (V m c main_v9 : S1x2048.Idx → EReal) (ix2 u n) = (m ((c : Thread nD τ).loc main_arg6)) (ix1 n) := by
  have e : (V m c main_v9 : S1x2048.Idx → EReal) = shapeCast S1x2048 (m ((c : Thread nD τ).loc main_arg6)) shapeCasts_S2048_S1x2048 := by
    dsimp only [Gen.V, Gen.hostOps0]; after_results; rfl
  rw [e]
  exact Cert.RowView.row_apply (m ((c : Thread nD τ).loc main_arg6)) shapeCasts_S2048_S1x2048 u n

/-- The candidate gate's bias window reads the bias as one row. -/
theorem V_main_v10_apply (c : Dev nD) (u : Fin 1) (n : Fin 2048) :
    (V m c main_v10 : S1x2048.Idx → EReal) (ix2 u n) = (m ((c : Thread nD τ).loc main_arg8)) (ix1 n) := by
  have e : (V m c main_v10 : S1x2048.Idx → EReal) = shapeCast S1x2048 (m ((c : Thread nD τ).loc main_arg8)) shapeCasts_S2048_S1x2048 := by
    dsimp only [Gen.V, Gen.hostOps0]; after_results; rfl
  rw [e]
  exact Cert.RowView.row_apply (m ((c : Thread nD τ).loc main_arg8)) shapeCasts_S2048_S1x2048 u n

/-- The output gate's bias window reads the bias as one row. -/
theorem V_main_v11_apply (c : Dev nD) (u : Fin 1) (n : Fin 2048) :
    (V m c main_v11 : S1x2048.Idx → EReal) (ix2 u n) = (m ((c : Thread nD τ).loc main_arg10)) (ix1 n) := by
  have e : (V m c main_v11 : S1x2048.Idx → EReal) = shapeCast S1x2048 (m ((c : Thread nD τ).loc main_arg10)) shapeCasts_S2048_S1x2048 := by
    dsimp only [Gen.V, Gen.hostOps0]; after_results; rfl
  rw [e]
  exact Cert.RowView.row_apply (m ((c : Thread nD τ).loc main_arg10)) shapeCasts_S2048_S1x2048 u n

end Cert.KernelIdeal.HostPrefix

end
-- ==== Proof.Spec.lean ====
/-
  The cell this kernel and its reference both compute, as functions on the extended reals.

  With `x` and `h` two [4096, 2048] arrays, each row `b` of the joined input is the row of `x` followed by the
  row of `h` — 4096 entries. A gate with weights `W` [2048, 4096] and bias `β` [2048] has, at batch row `b` and
  hidden unit `j`, the pre-activation `(∑ₖ joined b k · W j k) + β j`. The cell state is
  `(σ(pre_f) + σ(pre_i)) · tanh(pre_c)` and the hidden state `σ(pre_o) · tanh(cell)`, with `σ` the logistic
  function. Everything is read with the extended reals' own sum and product (a finite sum there is
  commutative and associative, whatever infinities occur), so the two programs, which form the very same
  sums of the very same products, need no finiteness of their inputs to agree.
-/
import Idealize.ShloMosaic.PureOps.Ideal
import Idealize.ShloMosaic.Lib.ValueIdx

noncomputable section

open Idealize.ShloMosaic Idealize.ShloMosaic.ValueIdx

namespace Cert.Lstm

/-- A [batch, feature] array of extended reals: the input `x`, the previous hidden state `h`, and each result. -/
abbrev Act : Type := (⟨2, ![4096, 2048]⟩ : Shape).Idx → EReal
/-- A gate's weights, [hidden unit, joined input position]. -/
abbrev Wt : Type := (⟨2, ![2048, 4096]⟩ : Shape).Idx → EReal
/-- A gate's bias, one entry per hidden unit. -/
abbrev Bias : Type := (⟨1, ![2048]⟩ : Shape).Idx → EReal

/-- Row `b` of the joined input `[x | h]` at position `k`: `x b k` below 2048, `h b (k - 2048)` from there on. -/
def joined (x h : Act) (b k : Fin 4096) : EReal :=
  if hk : k.val < 2048 then x (ix2 b ⟨k.val, hk⟩)
  else h (ix2 b ⟨k.val - 2048, by have := k.isLt; omega⟩)

/-- A gate's pre-activation at batch row `b`, hidden unit `j`: the joined row against row `j` of the weights,
    plus the unit's bias. -/
def pre (x h : Act) (W : Wt) (β : Bias) (b : Fin 4096) (j : Fin 2048) : EReal :=
  (∑ k : Fin 4096, joined x h b k * W (ix2 j k)) + β (ix1 j)

/-- The new cell state: the forget and input gates' sigmoids, added, times the candidate's tanh. -/
def cell (x h : Act) (Wf : Wt) (βf : Bias) (Wi : Wt) (βi : Bias) (Wc : Wt) (βc : Bias) (b : Fin 4096) (j : Fin 2048) : EReal :=
  (Ideal.logistic (pre x h Wf βf b j) + Ideal.logistic (pre x h Wi βi b j)) * Ideal.tanh (pre x h Wc βc b j)

/-- The new hidden state: the output gate's sigmoid times the tanh of the new cell state. -/
def hidden (x h : Act) (Wf : Wt) (βf : Bias) (Wi : Wt) (βi : Bias) (Wc : Wt) (βc : Bias) (Wo : Wt) (βo : Bias)
    (b : Fin 4096) (j : Fin 2048) : EReal :=
  Ideal.logistic (pre x h Wo βo b j) * Ideal.tanh (cell x h Wf βf Wi βi Wc βc b j)

/-- The cell state as an array. -/
def cellArr (x h : Act) (Wf : Wt) (βf : Bias) (Wi : Wt) (βi : Bias) (Wc : Wt) (βc : Bias) : Act :=
  fun i => cell x h Wf βf Wi βi Wc βc (i 0) (i 1)

/-- The hidden state as an array. -/
def hiddenArr (x h : Act) (Wf : Wt) (βf : Bias) (Wi : Wt) (βi : Bias) (Wc : Wt) (βc : Bias) (Wo : Wt) (βo : Bias) : Act :=
  fun i => hidden x h Wf βf Wi βi Wc βc Wo βo (i 0) (i 1)

/-- A pre-activation recognised: any three arrays that read, index by index, as the joined input, the
    transposed weights and the bias repeated down the rows, contracted and added, give `pre`. -/
theorem pre_of (x h : Act) (W : Wt) (β : Bias) (b : Fin 4096) (j : Fin 2048)
    (L : Fin 4096 → EReal) (R : Fin 4096 → EReal) (B : EReal)
    (hL : ∀ k, L k = joined x h b k) (hR : ∀ k, R k = W (ix2 j k)) (hB : B = β (ix1 j)) :
    (∑ k : Fin 4096, L k * R k) + B = pre x h W β b j := by
  unfold pre
  rw [hB]
  exact congrArg (· + β (ix1 j)) (Finset.sum_congr rfl fun k _ => by rw [hL k, hR k])

end Cert.Lstm

end
-- ==== Proof.Blocks.lean ====
/-
  From blocks to arrays: after the kernel's run its two result arrays are the hidden and cell states of the
  specification, as whole-array functions of the program's arguments.

  The grid has 4 × 8 points. At the point with output block (I, J) — rows 512·I …, columns 512·J … of a result —
  the `x` and `h` windows hold rows 512·I … of their arrays (all 2048 columns), every weight window holds
  columns 512·J … of its transposed array (all 4096 rows), and every bias window columns 512·J … of its row.
  So entry (r, q) of the point's output block is the specification at (512·I + r, 512·J + q): the joined block's
  row r is the joined input's row 512·I + r, and column q of a weight block is row 512·J + q of the weights.
  Every array index lies in exactly the block (row / 512, column / 512), and every point writes its block
  back, so the blocks cover both result arrays.
-/
import proofs.«102140_j22119081574758_2_alg».proof.Proof.Gen.KernelIdeal.Value
import proofs.«102140_j22119081574758_2_alg».proof.Proof.KernelBlock
import proofs.«102140_j22119081574758_2_alg».proof.Proof.BlockValue
import proofs.«102140_j22119081574758_2_alg».proof.Proof.HostPrefix
import proofs.«102140_j22119081574758_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- The cell state of the arguments core `c` was launched with. -/
def cellOf (c : Dev nD) : S4096x2048.Idx → EReal := cellArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The hidden state of the arguments core `c` was launched with. -/
def hiddenOf (c : Dev nD) : S4096x2048.Idx → EReal := hiddenArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## The printed index maps, decided over the 32 grid points -/

/-- The `x` and `h` windows move with the output's row block and stay at column block 0. -/
theorem facts_rows : ∀ t : Fin cfg0.N, win0_0.index t (0 : Fin 2) = win0_10.index t (0 : Fin 2) ∧ win0_0.index t (1 : Fin 2) = 0
    ∧ win0_1.index t (0 : Fin 2) = win0_10.index t (0 : Fin 2) ∧ win0_1.index t (1 : Fin 2) = 0 :=
  (by decide +kernel : ∀ t : Fin grid0.N, _)

/-- Each weight and bias window stays at row block 0 and moves with the output's column block. -/
theorem facts_w2 : ∀ t : Fin cfg0.N, win0_2.index t (0 : Fin 2) = 0 ∧ win0_2.index t (1 : Fin 2) = win0_10.index t (1 : Fin 2) :=
  (by decide +kernel : ∀ t : Fin grid0.N, _)
theorem facts_w3 : ∀ t : Fin cfg0.N, win0_3.index t (0 : Fin 2) = 0 ∧ win0_3.index t (1 : Fin 2) = win0_10.index t (1 : Fin 2) :=
  (by decide +kernel : ∀ t : Fin grid0.N, _)
theorem facts_w4 : ∀ t : Fin cfg0.N, win0_4.index t (0 : Fin 2) = 0 ∧ win0_4.index t (1 : Fin 2) = win0_10.index t (1 : Fin 2) :=
  (by decide +kernel : ∀ t : Fin grid0.N, _)
theorem facts_w5 : ∀ t : Fin cfg0.N, win0_5.index t (0 : Fin 2) = 0 ∧ win0_5.index t (1 : Fin 2) = win0_10.index t (1 : Fin 2) :=
  (by decide +kernel : ∀ t : Fin grid0.N, _)
theorem facts_w6 : ∀ t : Fin cfg0.N, win0_6.index t (0 : Fin 2) = 0 ∧ win0_6.index t (1 : Fin 2) = win0_10.index t (1 : Fin 2) :=
  (by decide +kernel : ∀ t : Fin grid0.N, _)
theorem facts_w7 : ∀ t : Fin cfg0.N, win0_7.index t (0 : Fin 2) = 0 ∧ win0_7.index t (1 : Fin 2) = win0_10.index t (1 : Fin 2) :=
  (by decide +kernel : ∀ t : Fin grid0.N, _)
theorem facts_w8 : ∀ t : Fin cfg0.N, win0_8.index t (0 : Fin 2) = 0 ∧ win0_8.index t (1 : Fin 2) = win0_10.index t (1 : Fin 2) :=
  (by decide +kernel : ∀ t : Fin grid0.N, _)
theorem facts_w9 : ∀ t : Fin cfg0.N, win0_9.index t (0 : Fin 2) = 0 ∧ win0_9.index t (1 : Fin 2) = win0_10.index t (1 : Fin 2) :=
  (by decide +kernel : ∀ t : Fin grid0.N, _)

/-- The two outputs move together, over 8 row blocks and 4 column blocks. -/
theorem facts_out : ∀ t : Fin cfg0.N, win0_11.index t (0 : Fin 2) = win0_10.index t (0 : Fin 2)
    ∧ win0_11.index t (1 : Fin 2) = win0_10.index t (1 : Fin 2)
    ∧ win0_10.index t (0 : Fin 2) ≤ 7 ∧ win0_10.index t (1 : Fin 2) ≤ 3 :=
  (by decide +kernel : ∀ t : Fin grid0.N, _)

/-- Every output block is some point's. -/
theorem out_onto : ∀ (q0 : Fin 8) (q1 : Fin 4), ∃ t : Fin cfg0.N, win0_10.index t = ![q0.val, q1.val] :=
  (by decide +kernel : ∀ (q0 : Fin 8) (q1 : Fin 4), ∃ t : Fin grid0.N, win0_10.index t = ![q0.val, q1.val])

/-! ## The input blocks, read where the output block's rows and columns say -/

/-- The `x` block at (r, k) is `x` at (512·I + r, k). -/
theorem xblk_apply (c : Dev nD) (t : Fin cfg0.N) (r : Fin 512) (k : Fin 2048) (b : Fin 4096) (hb : b.val = win0_10.index t (0 : Fin 2) * 512 + r.val) :
    iblk m c 0 t (ix2 r k) = (m ((c : Thread nD τ).loc main_arg0)) (ix2 b k) := by
  obtain ⟨e0, e1, -, -⟩ := facts_rows t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = b.val; omega
  | ⟨1, _⟩ => show win0_0.index t (1 : Fin 2) * 2048 + 1 * k.val = k.val; omega

/-- The `h` block at (r, k) is `h` at (512·I + r, k). -/
theorem hblk_apply (c : Dev nD) (t : Fin cfg0.N) (r : Fin 512) (k : Fin 2048) (b : Fin 4096) (hb : b.val = win0_10.index t (0 : Fin 2) * 512 + r.val) :
    iblk m c 1 t (ix2 r k) = (m ((c : Thread nD τ).loc main_arg1)) (ix2 b k) := by
  obtain ⟨-, -, e0, e1⟩ := facts_rows t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = b.val; omega
  | ⟨1, _⟩ => show win0_1.index t (1 : Fin 2) * 2048 + 1 * k.val = k.val; omega

/-- The forget gate's weight block at (k, q) is its weights at (512·J + q, k). -/
theorem wblk2_apply (c : Dev nD) (t : Fin cfg0.N) (k : Fin 4096) (q : Fin 512) (j : Fin 2048) (hj : j.val = win0_10.index t (1 : Fin 2) * 512 + q.val) :
    iblk m c 2 t (ix2 k q) = (m ((c : Thread nD τ).loc main_arg3)) (ix2 j k) := by
  obtain ⟨e0, e1⟩ := facts_w2 t
  have e : ((cfg0.win 2).blk t).view.emb (ix2 k q) = ix2 k j := funext fun a => Fin.ext (by
    match a with
    | ⟨0, _⟩ => show win0_2.index t (0 : Fin 2) * 4096 + 1 * k.val = k.val; omega
    | ⟨1, _⟩ => show win0_2.index t (1 : Fin 2) * 512 + 1 * q.val = j.val; omega)
  show V m c main_v1 (((cfg0.win 2).blk t).view.emb (ix2 k q)) = _
  rw [e]
  exact V_main_v1_apply m c k j

/-- The input gate's weight block at (k, q) is its weights at (512·J + q, k). -/
theorem wblk4_apply (c : Dev nD) (t : Fin cfg0.N) (k : Fin 4096) (q : Fin 512) (j : Fin 2048) (hj : j.val = win0_10.index t (1 : Fin 2) * 512 + q.val) :
    iblk m c 4 t (ix2 k q) = (m ((c : Thread nD τ).loc main_arg5)) (ix2 j k) := by
  obtain ⟨e0, e1⟩ := facts_w4 t
  have e : ((cfg0.win 4).blk t).view.emb (ix2 k q) = ix2 k j := funext fun a => Fin.ext (by
    match a with
    | ⟨0, _⟩ => show win0_4.index t (0 : Fin 2) * 4096 + 1 * k.val = k.val; omega
    | ⟨1, _⟩ => show win0_4.index t (1 : Fin 2) * 512 + 1 * q.val = j.val; omega)
  show V m c main_v3 (((cfg0.win 4).blk t).view.emb (ix2 k q)) = _
  rw [e]
  exact V_main_v3_apply m c k j

/-- The candidate gate's weight block at (k, q) is its weights at (512·J + q, k). -/
theorem wblk6_apply (c : Dev nD) (t : Fin cfg0.N) (k : Fin 4096) (q : Fin 512) (j : Fin 2048) (hj : j.val = win0_10.index t (1 : Fin 2) * 512 + q.val) :
    iblk m c 6 t (ix2 k q) = (m ((c : Thread nD τ).loc main_arg7)) (ix2 j k) := by
  obtain ⟨e0, e1⟩ := facts_w6 t
  have e : ((cfg0.win 6).blk t).view.emb (ix2 k q) = ix2 k j := funext fun a => Fin.ext (by
    match a with
    | ⟨0, _⟩ => show win0_6.index t (0 : Fin 2) * 4096 + 1 * k.val = k.val; omega
    | ⟨1, _⟩ => show win0_6.index t (1 : Fin 2) * 512 + 1 * q.val = j.val; omega)
  show V m c main_v5 (((cfg0.win 6).blk t).view.emb (ix2 k q)) = _
  rw [e]
  exact V_main_v5_apply m c k j

/-- The output gate's weight block at (k, q) is its weights at (512·J + q, k). -/
theorem wblk8_apply (c : Dev nD) (t : Fin cfg0.N) (k : Fin 4096) (q : Fin 512) (j : Fin 2048) (hj : j.val = win0_10.index t (1 : Fin 2) * 512 + q.val) :
    iblk m c 8 t (ix2 k q) = (m ((c : Thread nD τ).loc main_arg9)) (ix2 j k) := by
  obtain ⟨e0, e1⟩ := facts_w8 t
  have e : ((cfg0.win 8).blk t).view.emb (ix2 k q) = ix2 k j := funext fun a => Fin.ext (by
    match a with
    | ⟨0, _⟩ => show win0_8.index t (0 : Fin 2) * 4096 + 1 * k.val = k.val; omega
    | ⟨1, _⟩ => show win0_8.index t (1 : Fin 2) * 512 + 1 * q.val = j.val; omega)
  show V m c main_v7 (((cfg0.win 8).blk t).view.emb (ix2 k q)) = _
  rw [e]
  exact V_main_v7_apply m c k j

/-- The forget gate's bias block at (0, q) is its bias at 512·J + q. -/
theorem bblk3_apply (c : Dev nD) (t : Fin cfg0.N) (q : Fin 512) (j : Fin 2048) (hj : j.val = win0_10.index t (1 : Fin 2) * 512 + q.val) :
    iblk m c 3 t (ix2 (0 : Fin 1) q) = (m ((c : Thread nD τ).loc main_arg4)) (ix1 j) := by
  obtain ⟨e0, e1⟩ := facts_w3 t
  have e : ((cfg0.win 3).blk t).view.emb (ix2 (0 : Fin 1) q) = ix2 (0 : Fin 1) j := funext fun a => Fin.ext (by
    match a with
    | ⟨0, _⟩ => show win0_3.index t (0 : Fin 2) * 1 + 1 * 0 = 0; omega
    | ⟨1, _⟩ => show win0_3.index t (1 : Fin 2) * 512 + 1 * q.val = j.val; omega)
  show V m c main_v8 (((cfg0.win 3).blk t).view.emb (ix2 (0 : Fin 1) q)) = _
  rw [e]
  exact V_main_v8_apply m c 0 j

/-- The input gate's bias block at (0, q) is its bias at 512·J + q. -/
theorem bblk5_apply (c : Dev nD) (t : Fin cfg0.N) (q : Fin 512) (j : Fin 2048) (hj : j.val = win0_10.index t (1 : Fin 2) * 512 + q.val) :
    iblk m c 5 t (ix2 (0 : Fin 1) q) = (m ((c : Thread nD τ).loc main_arg6)) (ix1 j) := by
  obtain ⟨e0, e1⟩ := facts_w5 t
  have e : ((cfg0.win 5).blk t).view.emb (ix2 (0 : Fin 1) q) = ix2 (0 : Fin 1) j := funext fun a => Fin.ext (by
    match a with
    | ⟨0, _⟩ => show win0_5.index t (0 : Fin 2) * 1 + 1 * 0 = 0; omega
    | ⟨1, _⟩ => show win0_5.index t (1 : Fin 2) * 512 + 1 * q.val = j.val; omega)
  show V m c main_v9 (((cfg0.win 5).blk t).view.emb (ix2 (0 : Fin 1) q)) = _
  rw [e]
  exact V_main_v9_apply m c 0 j

/-- The candidate gate's bias block at (0, q) is its bias at 512·J + q. -/
theorem bblk7_apply (c : Dev nD) (t : Fin cfg0.N) (q : Fin 512) (j : Fin 2048) (hj : j.val = win0_10.index t (1 : Fin 2) * 512 + q.val) :
    iblk m c 7 t (ix2 (0 : Fin 1) q) = (m ((c : Thread nD τ).loc main_arg8)) (ix1 j) := by
  obtain ⟨e0, e1⟩ := facts_w7 t
  have e : ((cfg0.win 7).blk t).view.emb (ix2 (0 : Fin 1) q) = ix2 (0 : Fin 1) j := funext fun a => Fin.ext (by
    match a with
    | ⟨0, _⟩ => show win0_7.index t (0 : Fin 2) * 1 + 1 * 0 = 0; omega
    | ⟨1, _⟩ => show win0_7.index t (1 : Fin 2) * 512 + 1 * q.val = j.val; omega)
  show V m c main_v10 (((cfg0.win 7).blk t).view.emb (ix2 (0 : Fin 1) q)) = _
  rw [e]
  exact V_main_v10_apply m c 0 j

/-- The output gate's bias block at (0, q) is its bias at 512·J + q. -/
theorem bblk9_apply (c : Dev nD) (t : Fin cfg0.N) (q : Fin 512) (j : Fin 2048) (hj : j.val = win0_10.index t (1 : Fin 2) * 512 + q.val) :
    iblk m c 9 t (ix2 (0 : Fin 1) q) = (m ((c : Thread nD τ).loc main_arg10)) (ix1 j) := by
  obtain ⟨e0, e1⟩ := facts_w9 t
  have e : ((cfg0.win 9).blk t).view.emb (ix2 (0 : Fin 1) q) = ix2 (0 : Fin 1) j := funext fun a => Fin.ext (by
    match a with
    | ⟨0, _⟩ => show win0_9.index t (0 : Fin 2) * 1 + 1 * 0 = 0; omega
    | ⟨1, _⟩ => show win0_9.index t (1 : Fin 2) * 512 + 1 * q.val = j.val; omega)
  show V m c main_v11 (((cfg0.win 9).blk t).view.emb (ix2 (0 : Fin 1) q)) = _
  rw [e]
  exact V_main_v11_apply m c 0 j

/-! ## One point's output entries are the specification's -/

/-- Row `r` of the point's joined block is row 512·I + r of the joined input. -/
theorem joined_blk (c : Dev nD) (t : Fin cfg0.N) (r : Fin 512) (b : Fin 4096) (hb : b.val = win0_10.index t (0 : Fin 2) * 512 + r.val) (k : Fin 4096) :
    (sideBySide (α := Elt Ideal .bf16) (k0_pay3 (F := Ideal) (iblk m c 0 t)) (k0_pay4 (F := Ideal) (iblk m c 1 t))) (ix2 r k) = joined (m ((c : Thread nD τ).loc main_arg0)) (m ((c : Thread nD τ).loc main_arg1)) b k := by
  unfold joined
  by_cases hk : k.val < 2048
  · rw [dif_pos hk]
    refine (sideBySide_left _ _ r k hk).trans ?_
    refine (congrFun (pay3_eq (iblk m c 0 t)) _).trans ?_
    exact xblk_apply m c t r ⟨k.val, hk⟩ b hb
  · rw [dif_neg hk]
    refine (sideBySide_right _ _ r k hk).trans ?_
    refine (congrFun (pay4_eq (iblk m c 1 t)) _).trans ?_
    exact hblk_apply m c t r ⟨k.val - 2048, by have := k.isLt; omega⟩ b hb

/-- A gate's pre-activation on the point's blocks is the specification's, whichever gate: its weight block's
    column `q` being row 512·J + q of the weights, its bias block's entry `q` the bias there. -/
theorem blockPre_eq (c : Dev nD) (t : Fin cfg0.N) (wblk : FVec Ideal S4096x512 .bf16) (βblk : FVec Ideal S1x512 .f32)
    (W : Wt) (β : Bias) (r q : Fin 512) (b : Fin 4096) (j : Fin 2048) (hb : b.val = win0_10.index t (0 : Fin 2) * 512 + r.val)
    (hw : ∀ k : Fin 4096, wblk (ix2 k q) = W (ix2 j k)) (hβ : βblk (ix2 (0 : Fin 1) q) = β (ix1 j)) :
    blockPre (sideBySide (α := Elt Ideal .bf16) (k0_pay3 (F := Ideal) (iblk m c 0 t)) (k0_pay4 (F := Ideal) (iblk m c 1 t))) wblk βblk r q = pre (m ((c : Thread nD τ).loc main_arg0)) (m ((c : Thread nD τ).loc main_arg1)) W β b j :=
  pre_of _ _ W β b j _ _ _ (fun k => joined_blk m c t r b hb k) hw hβ

end Cert.KernelIdeal.Blocks

end
-- ==== Proof.PointValue.lean ====
/-
  One grid point's output entries are the specification's: the cell entry (r, q) of the block at (I, J) is the
  cell state at (512·I + r, 512·J + q), and likewise the hidden entry — each gate's pre-activation on the
  point's blocks being the specification's pre-activation there.
-/
import proofs.«102140_j22119081574758_2_alg».proof.Proof.Blocks

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- The cell entry of the point's block is the specification's cell at (512·I + r, 512·J + q). -/
theorem cell_point (c : Dev nD) (t : Fin cfg0.N) (r q : Fin 512) (b : Fin 4096) (j : Fin 2048) (hb : b.val = win0_10.index t (0 : Fin 2) * 512 + r.val) (hj : j.val = win0_10.index t (1 : Fin 2) * 512 + q.val) :
    blockCell (sideBySide (α := Elt Ideal .bf16) (k0_pay3 (F := Ideal) (iblk m c 0 t)) (k0_pay4 (F := Ideal) (iblk m c 1 t))) (iblk m c 2 t) (iblk m c 3 t) (iblk m c 4 t) (iblk m c 5 t) (iblk m c 6 t) (iblk m c 7 t) r q = cell (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b j := by
  unfold blockCell cell
  rw [blockPre_eq m c t (iblk m c 2 t) (iblk m c 3 t) (m ((c : Thread nD τ).loc main_arg3)) (m ((c : Thread nD τ).loc main_arg4)) r q b j hb
      (fun k => wblk2_apply m c t k q j hj) (bblk3_apply m c t q j hj),
    blockPre_eq m c t (iblk m c 4 t) (iblk m c 5 t) (m ((c : Thread nD τ).loc main_arg5)) (m ((c : Thread nD τ).loc main_arg6)) r q b j hb
      (fun k => wblk4_apply m c t k q j hj) (bblk5_apply m c t q j hj),
    blockPre_eq m c t (iblk m c 6 t) (iblk m c 7 t) (m ((c : Thread nD τ).loc main_arg7)) (m ((c : Thread nD τ).loc main_arg8)) r q b j hb
      (fun k => wblk6_apply m c t k q j hj) (bblk7_apply m c t q j hj)]

/-- The hidden entry of the point's block is the specification's hidden state there. -/
theorem hidden_point (c : Dev nD) (t : Fin cfg0.N) (r q : Fin 512) (b : Fin 4096) (j : Fin 2048) (hb : b.val = win0_10.index t (0 : Fin 2) * 512 + r.val) (hj : j.val = win0_10.index t (1 : Fin 2) * 512 + q.val) :
    blockHidden (sideBySide (α := Elt Ideal .bf16) (k0_pay3 (F := Ideal) (iblk m c 0 t)) (k0_pay4 (F := Ideal) (iblk m c 1 t))) (iblk m c 2 t) (iblk m c 3 t) (iblk m c 4 t) (iblk m c 5 t) (iblk m c 6 t) (iblk m c 7 t) (iblk m c 8 t) (iblk m c 9 t) r q = Cert.Lstm.hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b j := by
  unfold blockHidden Cert.Lstm.hidden
  rw [cell_point m c t r q b j hb hj,
    blockPre_eq m c t (iblk m c 8 t) (iblk m c 9 t) (m ((c : Thread nD τ).loc main_arg9)) (m ((c : Thread nD τ).loc main_arg10)) r q b j hb
      (fun k => wblk8_apply m c t k q j hj) (bblk9_apply m c t q j hj)]

end Cert.KernelIdeal.Blocks

end
-- ==== Proof.FlushedCell.lean ====
/-
  What a grid point writes back to the cell-state array: its block of the cell state of the arguments.
-/
import proofs.«102140_j22119081574758_2_alg».proof.Proof.PointValue

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- What point `t` writes back to the cell-state array is block `t` of the cell state of the arguments. -/
theorem flushed11_eq (c : Dev nD) (t : Fin cfg0.N) :
    (dats m 0 c).flushed 11 t = ((cfg0.win 11).blk t).view.read (Elt Ideal) (cellOf m c) := by
  obtain ⟨o0, o1, -, -⟩ := facts_out t
  refine (Value.flushed11_A (F := Ideal) m c t).trans ?_
  refine (congrArg ((cfg0.win 11).cut (grid0.coords t)) (out11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))).trans ?_
  refine funext fun (y : S512x512.Idx) => ?_
  obtain ⟨r, q, rfl⟩ : ∃ (r q : Fin 512), y = ix2 r q := ⟨y 0, y 1, eq_ix2 y⟩
  show k0_pay1 (F := Ideal) (k0_pay5 (sideBySide (α := Elt Ideal .bf16) (k0_pay3 (F := Ideal) (iblk m c 0 t)) (k0_pay4 (F := Ideal) (iblk m c 1 t))) (iblk m c 2 t) (iblk m c 3 t)) (k0_pay6 (sideBySide (α := Elt Ideal .bf16) (k0_pay3 (F := Ideal) (iblk m c 0 t)) (k0_pay4 (F := Ideal) (iblk m c 1 t))) (iblk m c 4 t) (iblk m c 5 t)) (k0_pay7 (sideBySide (α := Elt Ideal .bf16) (k0_pay3 (F := Ideal) (iblk m c 0 t)) (k0_pay4 (F := Ideal) (iblk m c 1 t))) (iblk m c 6 t)) (iblk m c 7 t) (ix2 r q)
    = cell (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfg0.win 11).blk t).view.emb (ix2 r q)) 0) ((((cfg0.win 11).blk t).view.emb (ix2 r q)) 1)
  refine (cell_apply (sideBySide (α := Elt Ideal .bf16) (k0_pay3 (F := Ideal) (iblk m c 0 t)) (k0_pay4 (F := Ideal) (iblk m c 1 t))) (iblk m c 2 t) (iblk m c 3 t) (iblk m c 4 t) (iblk m c 5 t) (iblk m c 6 t) (iblk m c 7 t) r q).trans ?_
  exact cell_point m c t r q _ _
    (by show win0_11.index t (0 : Fin 2) * 512 + 1 * r.val = win0_10.index t (0 : Fin 2) * 512 + r.val; omega)
    (by show win0_11.index t (1 : Fin 2) * 512 + 1 * q.val = win0_10.index t (1 : Fin 2) * 512 + q.val; omega)

end Cert.KernelIdeal.Blocks

end
-- ==== Proof.FlushedHidden.lean ====
/-
  What a grid point writes back to the hidden-state array: its block of the hidden state of the arguments.
-/
import proofs.«102140_j22119081574758_2_alg».proof.Proof.PointValue

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- What point `t` writes back to the hidden-state array is block `t` of the hidden state of the arguments. -/
theorem flushed10_eq (c : Dev nD) (t : Fin cfg0.N) :
    (dats m 0 c).flushed 10 t = ((cfg0.win 10).blk t).view.read (Elt Ideal) (hiddenOf m c) := by
  obtain ⟨o0, o1, -, -⟩ := facts_out t
  refine (Value.flushed10_A (F := Ideal) m c t).trans ?_
  refine (congrArg ((cfg0.win 10).cut (grid0.coords t)) (out10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))).trans ?_
  refine funext fun (y : S512x512.Idx) => ?_
  obtain ⟨r, q, rfl⟩ : ∃ (r q : Fin 512), y = ix2 r q := ⟨y 0, y 1, eq_ix2 y⟩
  show k0_pay2 (F := Ideal) (sideBySide (α := Elt Ideal .bf16) (k0_pay3 (F := Ideal) (iblk m c 0 t)) (k0_pay4 (F := Ideal) (iblk m c 1 t))) (k0_pay5 (sideBySide (α := Elt Ideal .bf16) (k0_pay3 (F := Ideal) (iblk m c 0 t)) (k0_pay4 (F := Ideal) (iblk m c 1 t))) (iblk m c 2 t) (iblk m c 3 t)) (k0_pay6 (sideBySide (α := Elt Ideal .bf16) (k0_pay3 (F := Ideal) (iblk m c 0 t)) (k0_pay4 (F := Ideal) (iblk m c 1 t))) (iblk m c 4 t) (iblk m c 5 t)) (k0_pay7 (sideBySide (α := Elt Ideal .bf16) (k0_pay3 (F := Ideal) (iblk m c 0 t)) (k0_pay4 (F := Ideal) (iblk m c 1 t))) (iblk m c 6 t)) (iblk m c 7 t) (iblk m c 8 t) (iblk m c 9 t) (ix2 r q)
    = Cert.Lstm.hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((((cfg0.win 10).blk t).view.emb (ix2 r q)) 0) ((((cfg0.win 10).blk t).view.emb (ix2 r q)) 1)
  refine (hidden_apply (sideBySide (α := Elt Ideal .bf16) (k0_pay3 (F := Ideal) (iblk m c 0 t)) (k0_pay4 (F := Ideal) (iblk m c 1 t))) (iblk m c 2 t) (iblk m c 3 t) (iblk m c 4 t) (iblk m c 5 t) (iblk m c 6 t) (iblk m c 7 t) (iblk m c 8 t) (iblk m c 9 t) r q).trans ?_
  exact hidden_point m c t r q _ _
    (by show win0_10.index t (0 : Fin 2) * 512 + 1 * r.val = win0_10.index t (0 : Fin 2) * 512 + r.val; omega)
    (by show win0_10.index t (1 : Fin 2) * 512 + 1 * q.val = win0_10.index t (1 : Fin 2) * 512 + q.val; omega)

end Cert.KernelIdeal.Blocks

end
-- ==== Proof.Cover.lean ====
/-
  The output blocks cover the result arrays: index (i₀, i₁) lies in the block (i₀ / 512, i₁ / 512), and every one
  of the 8 × 4 blocks is some grid point's, which writes it back.
-/
import proofs.«102140_j22119081574758_2_alg».proof.Proof.Blocks

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- An index is in point `t`'s block of window 11 iff each coordinate is in the block's range on its axis. -/
theorem mem_blk11 (t : Fin cfg0.N) (i : S4096x2048.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v12_1).slice (win0_11.rect t)).set ↔ _
  rw [View.set_slice_whole, Rect.mem_set_unit]
  exact Iff.rfl

/-- Every index of the array is in the block (row / 512, column / 512), which some point writes back. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := out_onto ⟨(i 0).val / 512, by omega⟩ ⟨(i 1).val / 512, by omega⟩
  obtain ⟨o0, o1, -, -⟩ := facts_out t
  have q0 : win0_10.index t (0 : Fin 2) = (i 0).val / 512 := congrFun ht 0
  have q1 : win0_10.index t (1 : Fin 2) = (i 1).val / 512 := congrFun ht 1
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512
    omega
  | ⟨1, _⟩ =>
    show win0_11.index t (1 : Fin 2) * 512 ≤ (i 1).val ∧ (i 1).val < win0_11.index t (1 : Fin 2) * 512 + 512
    omega

/-- An index is in point `t`'s block of window 10 iff each coordinate is in the block's range on its axis. -/
theorem mem_blk10 (t : Fin cfg0.N) (i : S4096x2048.Idx) :
    i ∈ ((cfg0.win 10).blk t).view.set ↔ ∀ a : Fin 2, win0_10.index t a * S512x512.size a ≤ (i a).val
      ∧ (i a).val < win0_10.index t a * S512x512.size a + S512x512.size a := by
  show i ∈ ((View.whole main_v12_0).slice (win0_10.rect t)).set ↔ _
  rw [View.set_slice_whole, Rect.mem_set_unit]
  exact Iff.rfl

/-- Every index of the array is in the block (row / 512, column / 512), which some point writes back. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := out_onto ⟨(i 0).val / 512, by omega⟩ ⟨(i 1).val / 512, by omega⟩
  obtain ⟨o0, o1, -, -⟩ := facts_out t
  have q0 : win0_10.index t (0 : Fin 2) = (i 0).val / 512 := congrFun ht 0
  have q1 : win0_10.index t (1 : Fin 2) = (i 1).val / 512 := congrFun ht 1
  refine ⟨t, flush0_10 t, ?_⟩
  rw [mem_blk10]
  intro a
  match a with
  | ⟨0, _⟩ =>
    show win0_10.index t (0 : Fin 2) * 512 ≤ (i 0).val ∧ (i 0).val < win0_10.index t (0 : Fin 2) * 512 + 512
    omega
  | ⟨1, _⟩ =>
    show win0_10.index t (1 : Fin 2) * 512 ≤ (i 1).val ∧ (i 1).val < win0_10.index t (1 : Fin 2) * 512 + 512
    omega

end Cert.KernelIdeal.Blocks

end
-- ==== Proof.Arrays.lean ====
/-
  The two result arrays after the kernel's run: every point writes back its block of the hidden and cell
  states, and the blocks cover the arrays, so the arrays end holding those states whole.
-/
import proofs.«102140_j22119081574758_2_alg».proof.Proof.FlushedCell
import proofs.«102140_j22119081574758_2_alg».proof.Proof.FlushedHidden
import proofs.«102140_j22119081574758_2_alg».proof.Proof.Cover

noncomputable section

open Idealize.ShloMosaic Idealize.ShloMosaic.TcCoe Idealize.SL.Sem Idealize.ShloMosaic.ValueIdx
open Cert.KernelIdeal Cert.KernelIdeal.Gen Cert.KernelIdeal.Block Cert.KernelIdeal.BlockValue Cert.KernelIdeal.HostPrefix Cert.Lstm
open Idealize.ShloMosaic.Pipeline (Dat)

namespace Cert.KernelIdeal.Blocks

variable (m : (ℓ : Loc nD τ sig) → Buf (Elt Ideal) ℓ) (ρ : Dev nD → PrngReg)

/-- After the run the second result array holds the cell state of the arguments. -/
theorem final11 (c : Dev nD) : (dats m 0 c).arrAt 11 cfg0.N = cellOf m c :=
  (dats m 0 c).arrAt_eq_of_cover 11 (cellOf m c) (fun t _ => flushed11_eq m c t) cover11

/-- After the run the first result array holds the hidden state of the arguments. -/
theorem final10 (c : Dev nD) : (dats m 0 c).arrAt 10 cfg0.N = hiddenOf m c :=
  (dats m 0 c).arrAt_eq_of_cover 10 (hiddenOf m c) (fun t _ => flushed10_eq m c t) cover10

/-- The kernel's run on the extended reals: every weakly fair execution ends with the two result arrays at the
    hidden and cell states of the arguments, the arguments unchanged. -/
theorem run : θ_run defs (onTc (τ := τ) (main (F := Ideal))) ⟨m, fun _ => 0, ρ⟩ fun r => ∀ c : Dev nD,
      r.2.mem ((c : Thread nD τ).loc main_v12_0) = hiddenOf m c
      ∧ r.2.mem ((c : Thread nD τ).loc main_v12_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Value.run_blocks (F := Ideal) m ρ)

end Cert.KernelIdeal.Blocks

end
-- ==== Proof.Sigmoid.lean ====
/-
  The sigmoid in its two spellings. The kernel applies the single operation `logistic`; the reference
  spells `1 / (1 + exp (-x))` with a negation, an exponential, a sum with the literal one and a quotient
  of the literal one by that sum. On the extended reals the first is DEFINED as the second
  (`-∞ ↦ 0`, `+∞ ↦ 1` by the quotient's and the exponential's conventions), so the two agree at every
  extended real — no finiteness is needed — once the literal `0x3F800000` is read as the number one.
-/
import Idealize.ShloMosaic.PureOps.Ideal
import Idealize.ShloMosaic.Lib.IdealHost

noncomputable section

open Idealize.ShloMosaic

namespace Cert.Lstm

/-- `1 / (1 + exp (-x))` in the host's operations, with both ones the f32 literal one, is the
    kernel's `logistic x`, at every extended real `x`. -/
theorem host_sigmoid_eq (x : Ideal .f32) :
    FloatOps.hostDivf (Ideal.ofBits .f32 0x3F800000#32)
        (FloatOps.addf (Ideal.ofBits .f32 0x3F800000#32) (FloatOps.hostUnary .exp (FloatOps.hostNegf x)))
      = FloatOps.logistic x := by
  rw [Ideal.ofBits_one_f32]
  rfl

end Cert.Lstm

end
-- ==== Proof.RefIsSpec.lean ====
/-
  The reference program's two results, entry by entry, are the cell and hidden states of the specification.

  The reference joins `x` and `h` along their second axis, contracts the joined array with each transposed
  weight array, adds the bias repeated down the rows, and applies `1 / (1 + exp (-z))` or `tanh`. Read at
  (b, j): the join at (b, k) is `x b k` or `h b (k - 2048)`; the transposed weights at (k, j) are the weights at
  (j, k); the repeated bias is the bias at j; and the quotient spelling of the sigmoid is the logistic function.
-/
import proofs.«102140_j22119081574758_2_alg».proof.Proof.Gen.ReferenceIdeal.Read
import proofs.«102140_j22119081574758_2_alg».proof.Proof.Spec
import proofs.«102140_j22119081574758_2_alg».proof.Proof.Sigmoid
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.ReferenceIdeal Cert.ReferenceIdeal.Gen Cert.ReferenceIdeal.Read Cert.Lstm

namespace Cert.ReferenceIdeal.RefValue

/-- The joined array at (b, k) is the specification's joined row. -/
theorem joined_apply (x0 x1 : (⟨S4096x2048, .f32⟩ : BufTy).Contents (Elt Ideal)) (b k : Fin 4096) :
    val_main_v0 (F := Ideal) x0 x1 (ix2 b k) = joined x0 x1 b k := by
  unfold val_main_v0 joined
  by_cases hk : k.val < 2048
  · rw [dif_pos hk]
    exact concatenate_pair_apply_left (1 : Fin 2) x0 x1 concatenates_S4096x2048_S4096x2048_S4096x4096_d1 (ix2 b k) rfl
      (ix2 b ⟨k.val, hk⟩) (fun a => by match a with | ⟨0, _⟩ => rfl | ⟨1, _⟩ => rfl)
  · rw [dif_neg hk]
    have hk' : 2048 ≤ k.val := Nat.le_of_not_lt hk
    exact concatenate_pair_apply_right (1 : Fin 2) x0 x1 concatenates_S4096x2048_S4096x2048_S4096x4096_d1 (ix2 b k) rfl rfl
      (ix2 b ⟨k.val - 2048, by have := k.isLt; omega⟩)
      (fun a hne => by match a with | ⟨0, _⟩ => rfl | ⟨1, _⟩ => exact absurd rfl hne)
      (by show (k.val - 2048) + 2048 = k.val; omega)

/-- A gate's pre-activation in the reference's spelling, at (b, j). -/
theorem ref_pre (x0 x1 : (⟨S4096x2048, .f32⟩ : BufTy).Contents (Elt Ideal)) (W : (⟨S2048x4096, .f32⟩ : BufTy).Contents (Elt Ideal)) (β : (⟨S2048, .f32⟩ : BufTy).Contents (Elt Ideal)) (b : Fin 4096) (j : Fin 2048) :
    val_main_v5 (F := Ideal) x0 x1 W β (ix2 b j) = pre x0 x1 W β b j := by
  rw [val_main_v5_apply, val_main_v2_apply, val_main_v4_apply, val_main_v3_apply]
  refine pre_of x0 x1 W β b j (fun k => val_main_v0 (F := Ideal) x0 x1 (lidx_main_v2 (ix2 b j) k))
    (fun k => val_main_v1 (F := Ideal) W (ridx_main_v2 (ix2 b j) k)) (β (idx_main_v3 (idx_main_v4 (ix2 b j))))
    (fun k => ?_) (fun k => ?_) ?_
  · have e : lidx_main_v2 (ix2 b j) k = ix2 b k := funext fun a => by match a with | ⟨0, _⟩ => rfl | ⟨1, _⟩ => rfl
    show val_main_v0 (F := Ideal) x0 x1 (lidx_main_v2 (ix2 b j) k) = _
    rw [e]
    exact joined_apply x0 x1 b k
  · show val_main_v1 (F := Ideal) W (ridx_main_v2 (ix2 b j) k) = _
    rw [val_main_v1_apply]
    exact congrArg W (funext fun a => by match a with | ⟨0, _⟩ => rfl | ⟨1, _⟩ => rfl)
  · exact congrArg β (funext fun a => by match a with | ⟨0, _⟩ => rfl)

/-- The four gates' pre-activation stages are one term of their weights and bias. -/
theorem v16_eq (x0 x1 : (⟨S4096x2048, .f32⟩ : BufTy).Contents (Elt Ideal)) (W : (⟨S2048x4096, .f32⟩ : BufTy).Contents (Elt Ideal)) (β : (⟨S2048, .f32⟩ : BufTy).Contents (Elt Ideal)) : val_main_v16 (F := Ideal) x0 x1 W β = val_main_v5 (F := Ideal) x0 x1 W β := rfl
theorem v27_eq (x0 x1 : (⟨S4096x2048, .f32⟩ : BufTy).Contents (Elt Ideal)) (W : (⟨S2048x4096, .f32⟩ : BufTy).Contents (Elt Ideal)) (β : (⟨S2048, .f32⟩ : BufTy).Contents (Elt Ideal)) : val_main_v27 (F := Ideal) x0 x1 W β = val_main_v5 (F := Ideal) x0 x1 W β := rfl
theorem v33_eq (x0 x1 : (⟨S4096x2048, .f32⟩ : BufTy).Contents (Elt Ideal)) (W : (⟨S2048x4096, .f32⟩ : BufTy).Contents (Elt Ideal)) (β : (⟨S2048, .f32⟩ : BufTy).Contents (Elt Ideal)) : val_main_v33 (F := Ideal) x0 x1 W β = val_main_v5 (F := Ideal) x0 x1 W β := rfl

/-- The reference's forget gate at (b, j): the sigmoid of its pre-activation. -/
theorem ref_forget (x0 x1 : (⟨S4096x2048, .f32⟩ : BufTy).Contents (Elt Ideal)) (W : (⟨S2048x4096, .f32⟩ : BufTy).Contents (Elt Ideal)) (β : (⟨S2048, .f32⟩ : BufTy).Contents (Elt Ideal)) (b : Fin 4096) (j : Fin 2048) :
    val_main_v11 (F := Ideal) x0 x1 W β (ix2 b j) = Ideal.logistic (pre x0 x1 W β b j) := by
  rw [val_main_v11_apply, val_main_v10_apply, val_main_cst_0_apply, val_main_v9_apply, val_main_v8_apply, val_main_cst_apply,
    val_main_v7_apply, val_main_v6_apply, ref_pre]
  exact Cert.Lstm.host_sigmoid_eq _

/-- The reference's input gate at (b, j). -/
theorem ref_input (x0 x1 : (⟨S4096x2048, .f32⟩ : BufTy).Contents (Elt Ideal)) (W : (⟨S2048x4096, .f32⟩ : BufTy).Contents (Elt Ideal)) (β : (⟨S2048, .f32⟩ : BufTy).Contents (Elt Ideal)) (b : Fin 4096) (j : Fin 2048) :
    val_main_v22 (F := Ideal) x0 x1 W β (ix2 b j) = Ideal.logistic (pre x0 x1 W β b j) := by
  rw [val_main_v22_apply, val_main_v21_apply, val_main_cst_2_apply, val_main_v20_apply, val_main_v19_apply, val_main_cst_1_apply,
    val_main_v18_apply, val_main_v17_apply, v16_eq, ref_pre]
  exact Cert.Lstm.host_sigmoid_eq _

/-- The reference's output gate at (b, j). -/
theorem ref_output (x0 x1 : (⟨S4096x2048, .f32⟩ : BufTy).Contents (Elt Ideal)) (W : (⟨S2048x4096, .f32⟩ : BufTy).Contents (Elt Ideal)) (β : (⟨S2048, .f32⟩ : BufTy).Contents (Elt Ideal)) (b : Fin 4096) (j : Fin 2048) :
    val_main_v39 (F := Ideal) x0 x1 W β (ix2 b j) = Ideal.logistic (pre x0 x1 W β b j) := by
  rw [val_main_v39_apply, val_main_v38_apply, val_main_cst_4_apply, val_main_v37_apply, val_main_v36_apply, val_main_cst_3_apply,
    val_main_v35_apply, val_main_v34_apply, v33_eq, ref_pre]
  exact Cert.Lstm.host_sigmoid_eq _

/-- The reference's candidate at (b, j): the tanh of its pre-activation. -/
theorem ref_candidate (x0 x1 : (⟨S4096x2048, .f32⟩ : BufTy).Contents (Elt Ideal)) (W : (⟨S2048x4096, .f32⟩ : BufTy).Contents (Elt Ideal)) (β : (⟨S2048, .f32⟩ : BufTy).Contents (Elt Ideal)) (b : Fin 4096) (j : Fin 2048) :
    val_main_v28 (F := Ideal) x0 x1 W β (ix2 b j) = Ideal.tanh (pre x0 x1 W β b j) := by
  rw [val_main_v28_apply, v27_eq, ref_pre]
  rfl

/-- The reference's second result is the cell state. -/
theorem ref_cell (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) :
    val_main_v41 (F := Ideal) x0 x1 x3 x4 x5 x6 x7 x8 = cellArr x0 x1 x3 x4 x5 x6 x7 x8 := by
  funext i
  obtain ⟨b, j, rfl⟩ : ∃ (b : Fin 4096) (j : Fin 2048), i = ix2 b j := ⟨i 0, i 1, eq_ix2 i⟩
  rw [val_main_v41_apply, val_main_v40_apply, ref_forget, ref_input, ref_candidate]
  rfl

/-- The reference's first result is the hidden state. -/
theorem ref_hidden (x0 x1 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal))
    (x9 : (⟨S2048x4096, .f32⟩ : BufTy).Contents (Elt Ideal)) (x10 : (⟨S2048, .f32⟩ : BufTy).Contents (Elt Ideal)) :
    val_main_v43 (F := Ideal) x0 x1 x3 x4 x5 x6 x7 x8 x9 x10 = hiddenArr x0 x1 x3 x4 x5 x6 x7 x8 x9 x10 := by
  funext i
  obtain ⟨b, j, rfl⟩ : ∃ (b : Fin 4096) (j : Fin 2048), i = ix2 b j := ⟨i 0, i 1, eq_ix2 i⟩
  rw [val_main_v43_apply, val_main_v42_apply, ref_output, ref_cell]
  rfl

end Cert.ReferenceIdeal.RefValue

end
-- ==== Proof.lean ====
/-
  An LSTM cell step, kernel against reference, on the extended reals.

  Both programs take the input `x`, the previous hidden state `h` (each [4096, 2048]), four gates' weights
  ([2048, 4096]) and biases ([2048]), and return the new hidden and cell states. With `[x | h]` the rows of `x`
  and `h` joined, a gate's pre-activation at batch row b and hidden unit j is `(∑ₖ [x | h] b k · W j k) + β j`; the
  cell state is `(σ(pre_f) + σ(pre_i)) · tanh(pre_c)` and the hidden state `σ(pre_o) · tanh(cell)`
  (Proof/Spec.lean; the previous cell state is an argument neither program reads).

  The reference forms the join, contracts it with each transposed weight array, adds the bias and spells the
  sigmoid `1 / (1 + exp (-z))` (Proof/RefIsSpec.lean, Proof/Sigmoid.lean). The kernel works on a 4 × 8 grid of
  [512, 512] output blocks: at each point it writes the casts of its `x` and `h` row blocks side by side into a
  scratch buffer, reads the joined block back, multiplies it into zero with each [4096, 512] block of the
  transposed weights, adds the bias row, and applies the logistic function or tanh (Proof/KernelBlock.lean,
  Proof/BlockValue.lean, Proof/HostPrefix.lean); the blocks cover the two result arrays (Proof/Blocks.lean).
  Casting to bf16 is the identity on the extended reals, the logistic function there is by definition
  `1 / (1 + exp (-z))`, and both programs sum the same 4096 products at every entry, so the results agree at
  every extended real: the inputs' finiteness is never used.

  The frames of the two kernels are the generated frame runs; the reference's is its generated run with the
  results dropped. The idealization rewrote nothing, so what it preserves is trivial.
-/
import proofs.«102140_j22119081574758_2_alg».proof.Defs
import proofs.«102140_j22119081574758_2_alg».proof.Proof.Gen.Kernel
import proofs.«102140_j22119081574758_2_alg».proof.Proof.Gen.Kernel.Skeleton
import proofs.«102140_j22119081574758_2_alg».proof.Proof.Gen.Kernel.Launch
import proofs.«102140_j22119081574758_2_alg».proof.Proof.Gen.Kernel.Points
import proofs.«102140_j22119081574758_2_alg».proof.Proof.Gen.Kernel.Frame
import proofs.«102140_j22119081574758_2_alg».proof.Proof.Gen.KernelIdeal
import proofs.«102140_j22119081574758_2_alg».proof.Proof.Gen.KernelIdeal.Skeleton
import proofs.«102140_j22119081574758_2_alg».proof.Proof.Gen.KernelIdeal.Launch
import proofs.«102140_j22119081574758_2_alg».proof.Proof.Gen.KernelIdeal.Points
import proofs.«102140_j22119081574758_2_alg».proof.Proof.Gen.KernelIdeal.Frame
import proofs.«102140_j22119081574758_2_alg».proof.Proof.Gen.ReferenceIdeal
import proofs.«102140_j22119081574758_2_alg».proof.Proof.Gen.Pre_finite_inputs
import proofs.«102140_j22119081574758_2_alg».proof.Proof.Gen.KernelIdeal.Value
import proofs.«102140_j22119081574758_2_alg».proof.Proof.Gen.ReferenceIdeal.Run
import proofs.«102140_j22119081574758_2_alg».proof.Proof.Gen.ReferenceIdeal.Read
import proofs.«102140_j22119081574758_2_alg».proof.Proof.Arrays
import proofs.«102140_j22119081574758_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The two programs' results are the hidden and cell states of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.hiddenOf m c, fun c => Cert.KernelIdeal.Blocks.cellOf m c,
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v43_eq, Cert.ReferenceIdeal.RefValue.ref_hidden,
      (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · rw [(h c).2.1, Cert.ReferenceIdeal.Read.val_main_v41_eq, Cert.ReferenceIdeal.RefValue.ref_cell,
      (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
